-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) (main_arg1 : FVec F S32x2048x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  main_v8
-- ==== Kernel.lean ====
abbrev S32x2048x1024 : Shape := ⟨3, ![32, 2048, 1024]⟩
abbrev S32x2048 : Shape := ⟨2, ![32, 2048]⟩
abbrev S8x128x1024 : Shape := ⟨3, ![8, 128, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048, .f32⟩
  | .local _ .vmem, ⟨0, _⟩ => ⟨S8x128x1024, .f32⟩
  | .local _ .vmem, ⟨1, _⟩ => ⟨S8x128x1024, .f32⟩
  | .local _ .vmem, ⟨2, _⟩ => ⟨S8x128x1024, .f32⟩
  | .local _ .vmem, ⟨3, _⟩ => ⟨S8x128x1024, .f32⟩
  | .local _ .vmem, ⟨4, _⟩ => ⟨S8x128, .f32⟩
  | .local _ .vmem, ⟨5, _⟩ => ⟨S8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  inb_S8x128_S8x128_0_0 : ∀ a, (![0, 0] : Fin 2 → Nat) a + S8x128.size a ≤ S8x128.size a
  h_S8x128 : 0 < S8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x2048x1024.size a
  hwx0_0 : ∀ i : grid0.Coords, EltTy.bits .f32 = 32 ∨ (Rect.block (s := S32x2048x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S32x2048x1024.size a
  hwx0_1 : ∀ i : grid0.Coords, EltTy.bits .f32 = 32 ∨ (Rect.block (s := S32x2048x1024) S8x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x2048.size a
  hwx0_2 : ∀ i : grid0.Coords, EltTy.bits .f32 = 32 ∨ (Rect.block (s := S32x2048) S8x128.size (cc0_transform_2 i) (hinb0_2 i)).WholeWords (EltTy.packing .f32)

variable [Facts₀]

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S_ : Shape := ⟨0, ![]⟩
abbrev S32x2048 : Shape := ⟨2, ![32, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S_, .f32⟩
  | .hbm, ⟨4, _⟩ => ⟨S32x2048, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S_, .f32⟩
  | .hbm, ⟨9, _⟩ => ⟨S32x2048, .f32⟩
  | .hbm, ⟨10, _⟩ => ⟨S32x2048, .f32⟩
  | .hbm, ⟨11, _⟩ => ⟨S32x2048, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S_, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S32x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S32x2048x1024_S32x2048_d2 : S32x2048x1024.ReducesTo [2] S32x2048
  h_S_ : 0 < S_.numel
  bcast_S_S32x2048 : S_.BroadcastsInDim S32x2048 (![] : Fin 0 → Fin S32x2048.rank)

variable [Facts₀]

class Facts : Prop extends Facts₀ where

variable [Facts]
-- ==== Proof.RowLaw.lean ====
/-
  The law that joins the two programs, on the extended reals, with no program in sight.

  A row is a pair of finite families `f g : Fin n → EReal`: one row of the first array and the same row of the
  second.  One side computes
      (∑ f·g) · rsqrt (max (∑ f·f) ε · max (∑ g·g) ε),
  the other
      (0 + ∑ f·g) / (√(max (0 + ∑ f·f) ε) · √(max (0 + ∑ g·g) ε)).
  When every entry is a real number the three sums are real, the two clamped sums of squares are reals ≥ ε > 0, and
  over positive reals  d / (√p · √q) = d · (√(p·q))⁻¹,  because √(p·q) = √p · √q.  Finiteness is used: at an
  infinite entry a clamped sum is +∞ and the quotient's and the product's corner conventions are no longer the
  same function.
-/
import Idealize.ShloMosaic.PureOps.Ideal
import Idealize.ShloMosaic.PureOps.Ideal.Laws

noncomputable section

namespace Cert.Cosine

open Idealize.ShloMosaic

/-- The clamp under both square roots: the f32 pattern nearest 1e-12. -/
abbrev eps : EReal := Ideal.ofBits .f32 0x2B8CBCCC#32

/-- The clamp denotes a positive real: 9223372 · 2⁻⁶³ (sign 0, exponent field 87, fraction field 834764). -/
theorem eps_real : ∃ e : ℝ, 0 < e ∧ eps = (e : EReal) := by
  refine ⟨(9223372 : ℝ) * (2 : ℝ) ^ (-63 : ℤ), by positivity, ?_⟩
  simp [eps, Ideal.ofBits, Ideal.ieee, -EReal.coe_mul]

/-- A finite sum of reals, read in the extended reals, is the sum of the readings. -/
theorem coe_sum {ι : Type} (s : Finset ι) (u : ι → ℝ) : ((∑ k ∈ s, u k : ℝ) : EReal) = ∑ k ∈ s, (u k : EReal) := by
  classical
  induction s using Finset.induction_on with
  | empty => simp
  | insert a s ha ih => rw [Finset.sum_insert ha, Finset.sum_insert ha, EReal.coe_add, ih]

/-- The larger of two reals, read in the extended reals, is the larger of the readings (the reading is monotone). -/
theorem max_coe (x y : ℝ) : max (x : EReal) (y : EReal) = ((max x y : ℝ) : EReal) :=
  (EReal.coe_strictMono.monotone.map_max).symm

/-- Over positive reals `p q`: the quotient by `√p · √q` is the product with `(√(p·q))⁻¹`. -/
theorem quotient_eq_product (d p q : ℝ) (hp : 0 < p) (hq : 0 < q) :
    Ideal.div (d : EReal) (Ideal.sqrt (p : EReal) * Ideal.sqrt (q : EReal))
      = (d : EReal) * Ideal.rsqrt ((p : EReal) * (q : EReal)) := by
  have hsp : 0 < Real.sqrt p := Real.sqrt_pos.2 hp
  have hsq : 0 < Real.sqrt q := Real.sqrt_pos.2 hq
  rw [Ideal.sqrt_coe, Ideal.sqrt_coe, if_neg (not_lt.2 hp.le), if_neg (not_lt.2 hq.le), ← EReal.coe_mul, ← EReal.coe_mul,
    Ideal.div_coe (mul_pos hsp hsq).ne', Ideal.rsqrt_coe, if_neg (not_lt.2 (mul_pos hp hq).le), if_neg (mul_pos hp hq).ne',
    Real.sqrt_mul hp.le, one_div]

/-- THE ROW LAW.  For rows of real numbers the reference's quotient is the kernel's product. -/
theorem row_law {n : ℕ} (f g : Fin n → EReal) (hf : ∀ k, ∃ r : ℝ, f k = (r : EReal)) (hg : ∀ k, ∃ r : ℝ, g k = (r : EReal)) :
    Ideal.div (0 + ∑ k, f k * g k) (Ideal.sqrt (max (0 + ∑ k, f k * f k) eps) * Ideal.sqrt (max (0 + ∑ k, g k * g k) eps))
      = (∑ k, f k * g k) * Ideal.rsqrt (max (∑ k, f k * f k) eps * max (∑ k, g k * g k) eps) := by
  choose u hu using hf
  choose v hv using hg
  obtain ⟨e, he, hε⟩ := eps_real
  have hfg : ∑ k, f k * g k = ((∑ k, u k * v k : ℝ) : EReal) := by
    rw [coe_sum]; exact Finset.sum_congr rfl fun k _ => by rw [hu k, hv k, EReal.coe_mul]
  have hff : ∑ k, f k * f k = ((∑ k, u k * u k : ℝ) : EReal) := by
    rw [coe_sum]; exact Finset.sum_congr rfl fun k _ => by rw [hu k, EReal.coe_mul]
  have hgg : ∑ k, g k * g k = ((∑ k, v k * v k : ℝ) : EReal) := by
    rw [coe_sum]; exact Finset.sum_congr rfl fun k _ => by rw [hv k, EReal.coe_mul]
  rw [zero_add, zero_add, zero_add, hfg, hff, hgg, hε, max_coe, max_coe]
  exact quotient_eq_product _ _ _ (lt_max_of_lt_right he) (lt_max_of_lt_right he)

end Cert.Cosine

end
-- ==== Proof.Spec.lean ====
/-
  The specification: the result array as ONE function of the two argument arrays, index by index.

  The arguments are arrays `A B` over [32, 2048, 1024]; the result is an array over [32, 2048].  Entry `(b, n)` of the
  result depends on row `(b, n, ·)` of each argument only: with `d = ∑ₖ A·B`, `sa = ∑ₖ A·A`, `sb = ∑ₖ B·B` over the
  1024 entries of the row, it is the cosine of the angle between the two rows with each squared norm clamped from
  below by `ε`,
      d · rsqrt (max sa ε · max sb ε).
-/
import Idealize.ShloMosaic.Lib.ValueIdx
import proofs.«143494_j49289044689062_2_alg».proof.Proof.RowLaw

noncomputable section

namespace Cert.Cosine

open Idealize.ShloMosaic

/-- The argument arrays' shape and the result's. -/
abbrev Arg : Shape := ⟨3, ![32, 2048, 1024]⟩
abbrev Res : Shape := ⟨2, ![32, 2048]⟩

/-- Entry `k` of the row that result index `i = (b, n)` depends on: `(b, n, k)`. -/
abbrev rowIdx (i : Res.Idx) (k : Fin 1024) : Arg.Idx := fun a => match a with
  | ⟨0, _⟩ => ⟨(i 0).val, (i 0).isLt⟩
  | ⟨1, _⟩ => ⟨(i 1).val, (i 1).isLt⟩
  | ⟨2, _⟩ => ⟨k.val, k.isLt⟩

/-- The clamped cosine of one pair of rows, given as families over the row's 1024 entries. -/
def rowCosine (f g : Fin 1024 → EReal) : EReal :=
  (∑ k, f k * g k) * Ideal.rsqrt (max (∑ k, f k * f k) eps * max (∑ k, g k * g k) eps)

/-- THE SPECIFICATION: result entry `i` is the clamped cosine of row `i` of `A` and row `i` of `B`. -/
def cosine (A B : Arg.Idx → EReal) : Res.Idx → EReal :=
  fun i => rowCosine (fun k => A (rowIdx i k)) (fun k => B (rowIdx i k))

end Cert.Cosine

end
-- ==== Proof.KernelBlock.lean ====
/-
  What the kernel body leaves in an output block, as a function of the two input blocks.

  The body loads an [8, 128, 1024] block of each argument, forms the three elementwise products, sums each over the
  last axis, clamps the two sums of squares by ε, and stores  (∑ p₀·p₁) · rsqrt (max (∑ p₀·p₀) ε · max (∑ p₁·p₁) ε)
  into the [8, 128] output block.  So entry `(r, s)` of the output block is the clamped cosine of lane `(r, s, ·)` of
  the two input blocks: a lane sum at the ideal values is the plain sum over the lane's 1024 entries.
-/
import proofs.«143494_j49289044689062_2_alg».proof.Proof.Gen.KernelIdeal.Value
import Idealize.ShloMosaic.PureOps.Ideal.Laws
import proofs.«143494_j49289044689062_2_alg».proof.Proof.Spec

noncomputable section

namespace Cert.KernelIdeal.BlockValue

open Cert.KernelIdeal Cert.KernelIdeal.Gen Cert.KernelIdeal.Value Idealize.ShloMosaic Cert.Cosine

/-- Entry `k` of the lane of an input block that output-block index `y = (r, s)` depends on: `(r, s, k)`. -/
abbrev lane (y : S8x128.Idx) (k : Fin 1024) : S8x128x1024.Idx := fun a => match a with
  | ⟨0, _⟩ => ⟨(y 0).val, (y 0).isLt⟩
  | ⟨1, _⟩ => ⟨(y 1).val, (y 1).isLt⟩
  | ⟨2, _⟩ => ⟨k.val, k.isLt⟩

/-- The body's sum over the last axis, read at an index `j` with the coordinates of `y`: the sum over lane `y`. -/
theorem lane_sum (X : FVec Ideal S8x128x1024 .f32) (j y : S8x128.Idx) (e0 : (j 0).val = (y 0).val) (e1 : (j 1).val = (y 1).val) :
    multiReduction .add [2] S8x128 X 0x00000000#32 reduces_S8x128x1024_S8x128 (.inl rfl) rfl j = ∑ k : Fin 1024, X (lane y k) := by
  refine (Ideal.multiReduction_add_single X 0x00000000#32 reduces_S8x128x1024_S8x128 (.inl rfl) rfl j).trans ?_
  refine Finset.sum_congr rfl fun k _ => congrArg X (funext fun a => Fin.ext ?_)
  match a with
  | ⟨0, _⟩ => exact e0
  | ⟨1, _⟩ => exact e1
  | ⟨2, _⟩ => rfl

/-- THE BLOCK: entry `y` of what the body stores is the clamped cosine of lane `y` of its two loads. -/
theorem block_value (P0 P1 : Vec Ideal S8x128x1024 .f32) (y : S8x128.Idx) :
    E2 (F := Ideal) P0 P1 y = rowCosine (fun k => P0 (lane y k)) (fun k => P1 (lane y k)) := by
  show (multiReduction (F := Ideal) .add [2] S8x128 (mulf P0 P1) 0x00000000#32 reduces_S8x128x1024_S8x128 (.inl rfl) rfl (ix2_0 y))
      * Ideal.rsqrt (max (multiReduction (F := Ideal) .add [2] S8x128 (mulf P0 P0) 0x00000000#32 reduces_S8x128x1024_S8x128 (.inl rfl) rfl (ix2_1 y)) eps
        * max (multiReduction (F := Ideal) .add [2] S8x128 (mulf P1 P1) 0x00000000#32 reduces_S8x128x1024_S8x128 (.inl rfl) rfl (ix2_2 y)) eps) = _
  rw [lane_sum (mulf P0 P1) (ix2_0 y) y rfl rfl, lane_sum (mulf P0 P0) (ix2_1 y) y rfl rfl, lane_sum (mulf P1 P1) (ix2_2 y) y rfl rfl]
  rfl

end Cert.KernelIdeal.BlockValue

end
-- ==== Proof.KernelArray.lean ====
/-
  From output blocks to the whole result array.

  The grid has 4 × 16 points.  At point `(g, h)` the pipeline hands the body block `(g, h, 0)` of each argument — rows
  `8g … 8g+7` by `128h … 128h+127`, all 1024 entries of each row — and writes the body's [8, 128] result back as block
  `(g, h)` of the result array.  So lane `(r, s, ·)` of an input block is row `(8g + r, 128h + s, ·)` of the argument,
  the entry the body stores at `(r, s)` is the specification at `(8g + r, 128h + s)`, and point `(g, h)` writes back
  block `(g, h)` of the specification.  The 64 blocks tile [32, 2048] (index `(b, n)` lies in block `(b / 8, n / 128)`),
  hence the result array ends as the specification of the two argument arrays.
-/
import proofs.«143494_j49289044689062_2_alg».proof.Proof.KernelBlock
import Idealize.ShloMosaic.Lib.Pipeline.Value

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Cert.Cosine
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- The index maps over the 64 grid points: each input window sits at the output's block on the first two axes and at
    block 0 on the reduced axis; the output's block indices range over 4 × 16. -/
theorem block_indices : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = win0_2.index t (1 : Fin 2)
    ∧ win0_1.index t (2 : Fin 3) = 0 :=
  (by decide +kernel : ∀ t : Fin grid0.N, _)

/-- Every one of the 4 × 16 output blocks is some grid point's. -/
theorem every_block : ∀ (q0 : Fin 4) (q1 : Fin 16), ∃ t : Fin cfg0.N, win0_2.index t = ![q0.val, q1.val] :=
  (by decide +kernel : ∀ (q0 : Fin 4) (q1 : Fin 16), ∃ t : Fin grid0.N, win0_2.index t = ![q0.val, q1.val])

/-- If lane `y` of each loaded block is row `i` of an array, the entry the body stores at `y` is the specification of
    the two arrays at `i`. -/
theorem stored_is_cosine (P0 P1 : Vec Ideal S8x128x1024 .f32) (A B : Arg.Idx → EReal) (y : S8x128.Idx) (i : Res.Idx)
    (hA : ∀ k : Fin 1024, P0 (lane y k) = A (rowIdx i k)) (hB : ∀ k : Fin 1024, P1 (lane y k) = B (rowIdx i k)) :
    out0_2 P0 P1 y = cosine A B i := by
  unfold out0_2
  simp only [View.ld_unit_zero (S := S8x128x1024) origin3]
  rw [canon2_eq, block_value]
  exact congrArg₂ rowCosine (funext hA) (funext hB)

/-- WHAT POINT `t` WRITES BACK is block `t` of the specification of the argument arrays. -/
theorem flushed_is_cosine (c : Dev nD) (t : Fin cfg0.N) :
    (dats m 0 c).flushed 2 t
      = ((cfg0.win 2).blk t).view.read (Elt Ideal) (cosine (V m c main_arg0) (V m c main_arg1)) := by
  rw [flushed2]
  obtain ⟨a0, a1, a2, b0, b1, b2⟩ := block_indices t
  funext j
  show out0_2 (iblk m c 0 t) (iblk m c 1 t) j
    = cosine (V m c main_arg0) (V m c main_arg1) (((cfg0.win 2).blk t).view.emb j)
  refine stored_is_cosine (iblk m c 0 t) (iblk m c 1 t) (V m c main_arg0) (V m c main_arg1) j
    (((cfg0.win 2).blk t).view.emb j) (fun k => ?_) (fun k => ?_)
  · show V m c main_arg0 (((cfg0.win 0).blk t).view.emb (lane j k))
      = V m c main_arg0 (rowIdx (((cfg0.win 2).blk t).view.emb j) k)
    refine congrArg (V m c main_arg0) (funext fun a => Fin.ext ?_)
    match a with
    | ⟨0, _⟩ => show win0_0.index t (0 : Fin 3) * 8 + 1 * (j 0).val = win0_2.index t (0 : Fin 2) * 8 + 1 * (j 0).val; omega
    | ⟨1, _⟩ => show win0_0.index t (1 : Fin 3) * 128 + 1 * (j 1).val = win0_2.index t (1 : Fin 2) * 128 + 1 * (j 1).val; omega
    | ⟨2, _⟩ => show win0_0.index t (2 : Fin 3) * 1024 + 1 * k.val = k.val; omega
  · show V m c main_arg1 (((cfg0.win 1).blk t).view.emb (lane j k))
      = V m c main_arg1 (rowIdx (((cfg0.win 2).blk t).view.emb j) k)
    refine congrArg (V m c main_arg1) (funext fun a => Fin.ext ?_)
    match a with
    | ⟨0, _⟩ => show win0_1.index t (0 : Fin 3) * 8 + 1 * (j 0).val = win0_2.index t (0 : Fin 2) * 8 + 1 * (j 0).val; omega
    | ⟨1, _⟩ => show win0_1.index t (1 : Fin 3) * 128 + 1 * (j 1).val = win0_2.index t (1 : Fin 2) * 128 + 1 * (j 1).val; omega
    | ⟨2, _⟩ => show win0_1.index t (2 : Fin 3) * 1024 + 1 * k.val = k.val; omega

/-- An index of the result array is in point `t`'s block iff each coordinate is in the block's range on its axis. -/
theorem mem_block (t : Fin cfg0.N) (i : S32x2048.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- THE COVER: index `(b, n)` of the result array is in the block of the point whose output block is `(b / 8, n / 128)`. -/
theorem covered (i : S32x2048.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  obtain ⟨t, ht⟩ := every_block ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE RESULT ARRAY after the run is the specification of the two argument arrays as launched. -/
theorem final (c : Dev nD) :
    (dats m 0 c).arrAt 2 cfg0.N
      = cosine (m ((c : Thread nD τ).loc main_arg0)) (m ((c : Thread nD τ).loc main_arg1)) :=
  (dats m 0 c).arrAt_eq_of_cover 2 (cosine (V m c main_arg0) (V m c main_arg1))
    (fun t _ => flushed_is_cosine m c t) covered

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference computes the specification, on arrays of real numbers.

  Read one operation at a time, the reference's result at `i = (b, n)` is
      (0 + ∑ₖ a·b) / (√(max (0 + ∑ₖ a·a) ε) · √(max (0 + ∑ₖ b·b) ε))
  over row `(b, n, ·)` of each argument (each host sum starts from the zero pattern; the clamp is broadcast from a
  scalar).  For rows of real numbers the row law turns this quotient into the specification's product.
-/
import proofs.«143494_j49289044689062_2_alg».proof.Proof.Gen.ReferenceIdeal.Read
import proofs.«143494_j49289044689062_2_alg».proof.Proof.Spec

noncomputable section

namespace Cert.ReferenceIdeal.RefValue

open Cert.ReferenceIdeal Cert.ReferenceIdeal.Gen Cert.ReferenceIdeal.Read Idealize.ShloMosaic Cert.Cosine

/-- On arguments whose every entry is a real number, the reference's last stage is the specification. -/
theorem reference_is_cosine (x0 x1 : (⟨S32x2048x1024, .f32⟩ : BufTy).Contents (Elt Ideal))
    (h0 : ∀ j, ∃ r : ℝ, x0 j = (r : EReal)) (h1 : ∀ j, ∃ r : ℝ, x1 j = (r : EReal)) :
    val_main_v13 (F := Ideal) x0 x1 = cosine x0 x1 := by
  funext i
  rw [val_main_v13_apply, val_main_v1_apply, val_main_v12_apply, val_main_v6_apply, val_main_v11_apply,
    val_main_v5_apply, val_main_v10_apply, val_main_v3_apply, val_main_v8_apply, val_main_v4_apply, val_main_v9_apply]
  simp only [val_main_v0_apply, val_main_v2_apply, val_main_v7_apply, val_main_cst_apply, val_main_cst_0_apply,
    val_main_cst_1_apply, val_main_cst_2_apply, val_main_cst_3_apply, Ideal.hostDivf_def, Ideal.mulf_def,
    Ideal.hostUnary_sqrt_def, Ideal.maximumf_def, Ideal.ofBits_def, Ideal.ofBits_zero_f32]
  exact row_law (fun k => x0 (rowIdx i k)) (fun k => x1 (rowIdx i k)) (fun k => h0 _) (fun k => h1 _)

end Cert.ReferenceIdeal.RefValue

end
-- ==== Proof.Finite.lean ====
/-
  What the precondition says: every entry of each argument array is a real number.

  The precondition is  all (|a| < +∞) ∧ all (|b| < +∞),  each `all` a reduction by `and` over every axis from the
  constant 1.  A conjunction that is 1 has both conjuncts 1; a reduction by `and` that is 1 met only 1s; and an
  extended real `x` with `max x (-x) < +∞` is neither +∞ nor -∞ (at either infinity `max x (-x)` is +∞ itself).
-/
import proofs.«143494_j49289044689062_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs

/-- The rank-0 shape has one index. -/
instance : Subsingleton S_.Idx := ⟨fun a b => funext fun d => d.elim0⟩

/-- An extended real whose absolute value compares below the +∞ pattern is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of each argument is a real number. -/
theorem entries_real (a b : FVec Ideal S32x2048x1024 .f32) (h : fn (F := Ideal) a b = fun _ => 1#1) :
    (∀ j, ∃ r : ℝ, a j = (r : EReal)) ∧ (∀ j, ∃ r : ℝ, b j = (r : EReal)) := by
  have h' := congrFun h ValueIdx.ix0
  dsimp only [fn] at h'
  obtain ⟨ha, hb⟩ := IntOp.andi_eq_one.1 h'
  exact ⟨fun j => real_of_abs_lt_top (a j) (Host.reduce_andi_all _ _ _ _ _ ha j),
    fun j => real_of_abs_lt_top (b j) (Host.reduce_andi_all _ _ _ _ _ hb j)⟩

end Cert.Pre_finite_inputs.Finite

end
-- ==== Proof.lean ====
/-
  Per-row clamped cosine similarity of two arrays `a b : [32, 2048, 1024]`, result over [32, 2048].

  For row `(b, n)` put  d = ∑ₖ a·b,  sa = ∑ₖ a·a,  sb = ∑ₖ b·b  (k over the row's 1024 entries) and let ε be the f32
  pattern nearest 1e-12, the same word in both programs.  The kernel stores  d · rsqrt (max sa ε · max sb ε)  block by
  block over a 4 × 16 grid of [8, 128] output blocks; the reference computes  d / (√(max sa ε) · √(max sb ε))  on whole
  arrays.  At the ideal values a lane sum and a host sum of the same entries are the same sum, so both sides are
  functions of the three row sums, and for real entries  d / (√p · √q) = d · (√(p·q))⁻¹  with  p = max sa ε,
  q = max sb ε  positive reals (ε > 0).  The precondition — every entry finite — is what makes the sums real; it is used.

  The modules: `RowLaw` (the law on the extended reals), `Spec` (the result as one function `cosine` of the two
  arrays), `RefValue` (the reference's last stage is `cosine` on real arrays), `KernelBlock` (an entry of a stored
  block is the clamped cosine of a lane of the two loaded blocks), `KernelArray` (point `t` writes back block `t` of
  `cosine`, the blocks tile the array, so the kernel's result array is `cosine`), `Finite` (the precondition read as
  "every entry is a real").  The frames are the generated ones; the idealization rewrote nothing, so `preserves` is
  `True`.
-/
import proofs.«143494_j49289044689062_2_alg».proof.Defs
import proofs.«143494_j49289044689062_2_alg».proof.Proof.Gen.Kernel
import proofs.«143494_j49289044689062_2_alg».proof.Proof.Gen.Kernel.Skeleton
import proofs.«143494_j49289044689062_2_alg».proof.Proof.Gen.Kernel.Launch
import proofs.«143494_j49289044689062_2_alg».proof.Proof.Gen.Kernel.Points
import proofs.«143494_j49289044689062_2_alg».proof.Proof.Gen.Kernel.Frame
import proofs.«143494_j49289044689062_2_alg».proof.Proof.Gen.KernelIdeal
import proofs.«143494_j49289044689062_2_alg».proof.Proof.Gen.KernelIdeal.Skeleton
import proofs.«143494_j49289044689062_2_alg».proof.Proof.Gen.KernelIdeal.Launch
import proofs.«143494_j49289044689062_2_alg».proof.Proof.Gen.KernelIdeal.Points
import proofs.«143494_j49289044689062_2_alg».proof.Proof.Gen.KernelIdeal.Frame
import proofs.«143494_j49289044689062_2_alg».proof.Proof.Gen.ReferenceIdeal
import proofs.«143494_j49289044689062_2_alg».proof.Proof.Gen.Pre_finite_inputs
import proofs.«143494_j49289044689062_2_alg».proof.Proof.Gen.KernelIdeal.Value
import proofs.«143494_j49289044689062_2_alg».proof.Proof.Gen.ReferenceIdeal.Run
import proofs.«143494_j49289044689062_2_alg».proof.Proof.Gen.ReferenceIdeal.Read
import proofs.«143494_j49289044689062_2_alg».proof.Proof.KernelArray
import proofs.«143494_j49289044689062_2_alg».proof.Proof.RefValue
import proofs.«143494_j49289044689062_2_alg».proof.Proof.Finite
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are finite, the kernel's result array and the reference's are both the clamped
    cosine of the arguments' rows: the kernel's by its blocks, the reference's by the row law on real entries. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Finite.entries_real _ _ (hpre c)
  rw [(hagree c).1, (hagree c).2]
  exact (Cert.ReferenceIdeal.Read.val_main_v13_eq _ _).trans
    (Cert.ReferenceIdeal.RefValue.reference_is_cosine _ _ h0 h1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
